-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2048x512 : Shape := ⟨2, ![2048, 512]⟩
abbrev S512 : Shape := ⟨1, ![512]⟩
abbrev S2048 : Shape := ⟨1, ![2048]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S8192x512 .f32) (main_arg1 : FVec F S2048x512 .f32) (main_arg2 : FVec F S512 .f32) (main_arg3 : FVec F S2048 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S8192x512 : Shape := ⟨2, ![8192, 512]⟩
abbrev S2048x512 : Shape := ⟨2, ![2048, 512]⟩
abbrev S512 : Shape := ⟨1, ![512]⟩
abbrev S2048 : Shape := ⟨1, ![2048]⟩
abbrev S_ : Shape := ⟨0, ![]⟩
abbrev S1 : Shape := ⟨1, ![1]⟩
abbrev S1x512 : Shape := ⟨2, ![1, 512]⟩
abbrev S1x2048 : Shape := ⟨2, ![1, 2048]⟩
abbrev S512x2048 : Shape := ⟨2, ![512, 2048]⟩
abbrev S8192x2048 : Shape := ⟨2, ![8192, 2048]⟩
abbrev S1024x512 : Shape := ⟨2, ![1024, 512]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 39
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S2048x512, .f32⟩
  | .hbm, ⟨2, _⟩ => ⟨S512, .f32⟩
  | .hbm, ⟨3, _⟩ => ⟨S2048, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S_, .f32⟩
  | .hbm, ⟨17, _⟩ => ⟨S_, .f32⟩
  | .hbm, ⟨18, _⟩ => ⟨S1, .f32⟩
  | .hbm, ⟨19, _⟩ => ⟨S1, .f32⟩
  | .hbm, ⟨20, _⟩ => ⟨S2048, .f32⟩
  | .hbm, ⟨21, _⟩ => ⟨S2048, .f32⟩
  | .hbm, ⟨22, _⟩ => ⟨S2048x512, .f32⟩
  | .hbm, ⟨23, _⟩ => ⟨S1x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S1x2048, .f32⟩
  | .hbm, ⟨35, _⟩ => ⟨S1x512, .f32⟩
  | .hbm, ⟨36, _⟩ => ⟨S512x2048, .f32⟩
  | .hbm, ⟨37, _⟩ => ⟨S512x2048, .bf16⟩
  | .hbm, ⟨38, _⟩ => ⟨S8192x2048, .f32⟩
  | .local _ .vmem, ⟨0, _⟩ => ⟨S1024x512, .f32⟩
  | .local _ .vmem, ⟨1, _⟩ => ⟨S1024x512, .f32⟩
  | .local _ .vmem, ⟨2, _⟩ => ⟨S512x2048, .bf16⟩
  | .local _ .vmem, ⟨3, _⟩ => ⟨S1x512, .f32⟩
  | .local _ .vmem, ⟨4, _⟩ => ⟨S1x2048, .f32⟩
  | .local _ .vmem, ⟨5, _⟩ => ⟨S1024x2048, .f32⟩
  | .local _ .vmem, ⟨6, _⟩ => ⟨S1024x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S512_S_d0 : S512.ReducesTo [0] S_
  h_S_ : 0 < S_.numel
  reducesTo_S2048_S_d0 : S2048.ReducesTo [0] S_
  bcast_S_S1 : S_.BroadcastsInDim S1 (![] : Fin 0 → Fin S1.rank)
  bcast_S1_S2048_0 : S1.BroadcastsInDim S2048 (![0] : Fin 1 → Fin S2048.rank)
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  reducesTo_S2048x512_S2048_d1 : S2048x512.ReducesTo [1] S2048
  bcast_S_S2048 : S_.BroadcastsInDim S2048 (![] : Fin 0 → Fin S2048.rank)
  shapeCasts_S2048_S1x2048 : S2048.ShapeCasts S1x2048
  shapeCasts_S512_S1x512 : S512.ShapeCasts S1x512
  transposes_S2048x512_S512x2048_1_0 : S2048x512.Transposes [1, 0] S512x2048
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  broadcasts_S1024x1_S1024x2048 : S1024x1.Broadcasts S1024x2048
  inb_S1024x2048_S1024x2048_0_0 : ∀ a, (![0, 0] : Fin 2 → Nat) a + S1024x2048.size a ≤ S1024x2048.size a
  h_S1024x2048 : 0 < S1024x2048.numel
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S8192x2048.size a
  hwx0_4 : ∀ i : grid0.Coords, EltTy.bits .f32 = 32 ∨ (Rect.block (s := S8192x2048) S1024x2048.size (cc0_transform_4 i) (hinb0_4 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S2048x512 : Shape := ⟨2, ![2048, 512]⟩
abbrev S512 : Shape := ⟨1, ![512]⟩
abbrev S2048 : Shape := ⟨1, ![2048]⟩
abbrev S1x512 : Shape := ⟨2, ![1, 512]⟩
abbrev S_ : Shape := ⟨0, ![]⟩
abbrev S8192 : Shape := ⟨1, ![8192]⟩
abbrev S8192x2048 : Shape := ⟨2, ![8192, 2048]⟩
abbrev S8192x1 : Shape := ⟨2, ![8192, 1]⟩
abbrev S1x2048 : Shape := ⟨2, ![1, 2048]⟩
abbrev S1 : Shape := ⟨1, ![1]⟩

abbrev nBuf : Space → Nat
  | .hbm => 55
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S2048x512, .f32⟩
  | .hbm, ⟨2, _⟩ => ⟨S512, .f32⟩
  | .hbm, ⟨3, _⟩ => ⟨S2048, .f32⟩
  | .hbm, ⟨4, _⟩ => ⟨S512, .f32⟩
  | .hbm, ⟨5, _⟩ => ⟨S512, .f32⟩
  | .hbm, ⟨6, _⟩ => ⟨S8192x512, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192, .f32⟩
  | .hbm, ⟨12, _⟩ => ⟨S2048x512, .f32⟩
  | .hbm, ⟨13, _⟩ => ⟨S1x512, .f32⟩
  | .hbm, ⟨14, _⟩ => ⟨S2048x512, .f32⟩
  | .hbm, ⟨15, _⟩ => ⟨S2048x512, .f32⟩
  | .hbm, ⟨16, _⟩ => ⟨S_, .f32⟩
  | .hbm, ⟨17, _⟩ => ⟨S2048, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8192x2048, .f32⟩
  | .hbm, ⟨22, _⟩ => ⟨S8192x1, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1, .f32⟩
  | .hbm, ⟨38, _⟩ => ⟨S2048, .f32⟩
  | .hbm, ⟨39, _⟩ => ⟨S2048, .f32⟩
  | .hbm, ⟨40, _⟩ => ⟨S2048, .f32⟩
  | .hbm, ⟨41, _⟩ => ⟨S_, .f32⟩
  | .hbm, ⟨42, _⟩ => ⟨S_, .f32⟩
  | .hbm, ⟨43, _⟩ => ⟨S1, .f32⟩
  | .hbm, ⟨44, _⟩ => ⟨S1, .f32⟩
  | .hbm, ⟨45, _⟩ => ⟨S2048, .f32⟩
  | .hbm, ⟨46, _⟩ => ⟨S2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_call0_cst : Ref sig .tc := ⟨.hbm, 33, rfl⟩
abbrev main_call0_v0 : Ref sig .tc := ⟨.hbm, 34, rfl⟩
abbrev main_call0_cst_0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192x512_S8192_d1 : S8192x512.ReducesTo [1] S8192
  h_S_ : 0 < S_.numel
  bcast_S1x512_S2048x512_0_1 : S1x512.BroadcastsInDim S2048x512 (![0, 1] : Fin 2 → Fin S2048x512.rank)
  reducesTo_S2048x512_S2048_d1 : S2048x512.ReducesTo [1] S2048
  bcast_S8192_S8192x1_0 : S8192.BroadcastsInDim S8192x1 (![0] : Fin 1 → Fin S8192x1.rank)
  bcast_S_S8192x2048 : S_.BroadcastsInDim S8192x2048 (![] : Fin 0 → Fin S8192x2048.rank)
  bcast_S8192x1_S8192x2048_0_1 : S8192x1.BroadcastsInDim S8192x2048 (![0, 1] : Fin 2 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  reducesTo_S512_S_d0 : S512.ReducesTo [0] S_
  reducesTo_S2048_S_d0 : S2048.ReducesTo [0] S_
  bcast_S_S1 : S_.BroadcastsInDim S1 (![] : Fin 0 → Fin S1.rank)
  bcast_S1_S2048_0 : S1.BroadcastsInDim S2048 (![0] : Fin 1 → Fin S2048.rank)
  dot_S8192x512_S2048x512_S8192x2048_1_1_0_0_n_n_wf : DotDims.WF S8192x512 S2048x512 S8192x2048 [1] [1] [0] [0] [] []

variable [Facts₀]

def dot_S8192x512_S2048x512_S8192x2048_1_1_0_0_n_n : DotDims S8192x512 S2048x512 S8192x2048 where
  lhsContracting := [1]
  rhsContracting := [1]
  lhsNonContracting := [0]
  rhsNonContracting := [0]
  lhsBatch := []
  rhsBatch := []
  wf := dot_S8192x512_S2048x512_S8192x2048_1_1_0_0_n_n_wf

class Facts : Prop extends Facts₀ where

variable [Facts]
-- ==== Proof.Spec.lean ====
/-
  The discriminant head's score, as one function of the four argument arrays, index by index.

  For a sample n and a class c, with the inverse variances w_k = exp(-lcd_k):
    cross(n,c) = Σ_k (z[n,k]·w_k)·mu[c,k],   zsq(n) = Σ_k z[n,k]²·w_k,   musq(c) = Σ_k mu[c,k]²·w_k,   ld = Σ_k lcd_k,
  and lp the log-prior of the classes, the score is  lp(c) − ½·(zsq(n) − 2·cross(n,c) + musq(c) + ld).
  Two arrangements of it are named here. One expands the square inside the bracket (`refForm`). The other collects
  everything that depends on the class alone into a bias, bias(c) = lp(c) − ½·(musq(c) + ld), and leaves
  cross(n,c) + bias(c) − ½·zsq(n)  (`kerForm`). The sums are written exactly as each arrangement associates its
  products, and a sum that starts from an initial value keeps it.
-/
import Idealize.ShloMosaic.PureOps.Ideal
import Idealize.ShloMosaic.Lib.ValueIdx

noncomputable section

open scoped BigOperators

namespace Cert.Lda

open Idealize.ShloMosaic Idealize.ShloMosaic.ValueIdx

/-- The words of ½, 2 and 0 as extended reals. -/
abbrev half : EReal := Ideal.ofBits .f32 0x3F000000#32
abbrev two : EReal := Ideal.ofBits .f32 0x40000000#32
abbrev zero : EReal := Ideal.ofBits .f32 0x00000000#32

variable (z : (⟨2, ![8192, 512]⟩ : Shape).Idx → EReal) (mu : (⟨2, ![2048, 512]⟩ : Shape).Idx → EReal)
  (lcd : (⟨1, ![512]⟩ : Shape).Idx → EReal) (lp : (⟨1, ![2048]⟩ : Shape).Idx → EReal)

/-- The inverse variance of feature k: exp(−lcd_k). -/
def invVar (k : Fin 512) : EReal := Ideal.exp (-(lcd (ix1 k)))

/-- Σ_k (z[n,k]·w_k)·mu[c,k]. -/
def cross (n : Fin 8192) (c : Fin 2048) : EReal := ∑ k : Fin 512, (z (ix2 n k) * invVar lcd k) * mu (ix2 c k)

/-- 0 + Σ_k (z[n,k]·z[n,k])·w_k : the square taken first, from an initial value. -/
def zSqRef (n : Fin 8192) : EReal := zero + ∑ k : Fin 512, (z (ix2 n k) * z (ix2 n k)) * invVar lcd k

/-- Σ_k ((z[n,k]·w_k)·z[n,k]) : the weighted sample times the sample. -/
def zSqKer (n : Fin 8192) : EReal := ∑ k : Fin 512, (z (ix2 n k) * invVar lcd k) * z (ix2 n k)

/-- 0 + Σ_k (mu[c,k]·mu[c,k])·w_k. -/
def muSq (c : Fin 2048) : EReal := zero + ∑ k : Fin 512, (mu (ix2 c k) * mu (ix2 c k)) * invVar lcd k

/-- 0 + Σ_j lcd_j : the log-determinant of the diagonal covariance. -/
def logDet : EReal := zero + ∑ j : (⟨1, ![512]⟩ : Shape).Idx, lcd j

/-- The score with the square expanded inside the bracket. -/
def refForm (n : Fin 8192) (c : Fin 2048) : EReal :=
  lp (ix1 c) - half * (((zSqRef z lcd n - two * cross z mu lcd n c) + muSq mu lcd c) + logDet lcd)

/-- What depends on the class alone. -/
def bias (c : Fin 2048) : EReal := lp (ix1 c) - half * (muSq mu lcd c + logDet lcd)

/-- The score with the class-only part collected into the bias. -/
def kerForm (n : Fin 8192) (c : Fin 2048) : EReal :=
  (cross z mu lcd n c + bias mu lcd lp c) - half * zSqKer z lcd n

/-- The whole result array in the second arrangement. -/
def G : (⟨2, ![8192, 2048]⟩ : Shape).Idx → EReal := fun i => kerForm z mu lcd lp (i 0) (i 1)

theorem G_apply (n : Fin 8192) (c : Fin 2048) : G z mu lcd lp (ix2 n c) = kerForm z mu lcd lp n c := rfl

end Cert.Lda

end
-- ==== Proof.Law.lean ====
import proofs.«168030_j54116587929770_2_alg».proof.Proof.Spec
noncomputable section
open scoped BigOperators
namespace Cert.Lda
open Idealize.ShloMosaic Idealize.ShloMosaic.ValueIdx

/-! ### The three words as reals -/

/-- The word of ½ denotes the real ½. -/
theorem half_eq : half = ((1 / 2 : ℝ) : EReal) := by
  simp [half, Ideal.ofBits, Ideal.ieee, -EReal.coe_mul]; norm_num

/-- The word of 2 denotes the real 2. -/
theorem two_eq : two = ((2 : ℝ) : EReal) := by
  simp [two, Ideal.ofBits, Ideal.ieee, -EReal.coe_mul]; norm_num

/-- The word of 0 denotes 0. -/
theorem zero_eq : zero = 0 := by
  simp [zero, Ideal.ofBits, Ideal.ieee]

/-! ### Finite sums of reals inside the extended reals -/

/-- A finite sum of coerced reals is the coercion of the real sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-! ### The scalar law -/

/-- With A, C, M, L real and x any extended real,
    x − ½·(((A − 2·C) + M) + L) = (C + (x − ½·(M + L))) − ½·A.
    For x = ⊥ both sides are ⊥, for x = ⊤ both are ⊤, and for a real x it is a ring identity. -/
theorem scalar_law (A C M L : ℝ) (x : EReal) :
    x - ((1 / 2 : ℝ) : EReal) * ((((A : EReal) - ((2 : ℝ) : EReal) * C) + M) + L)
      = ((C : EReal) + (x - ((1 / 2 : ℝ) : EReal) * ((M : EReal) + L))) - ((1 / 2 : ℝ) : EReal) * A := by
  rw [← EReal.coe_mul 2 C, ← EReal.coe_sub, ← EReal.coe_add, ← EReal.coe_add, ← EReal.coe_mul,
    ← EReal.coe_add M L, ← EReal.coe_mul, ← EReal.coe_mul]
  induction x using EReal.rec with
  | bot => rw [EReal.bot_sub, EReal.bot_sub, EReal.add_bot, EReal.bot_sub]
  | coe r =>
    rw [← EReal.coe_sub, ← EReal.coe_sub, ← EReal.coe_add, ← EReal.coe_sub]
    congr 1; ring
  | top => rw [EReal.top_sub_coe, EReal.top_sub_coe, EReal.coe_add_top, EReal.top_sub_coe]

/-! ### The five sums over real inputs -/

section Reals

variable (zr : (⟨2, ![8192, 512]⟩ : Shape).Idx → ℝ) (mur : (⟨2, ![2048, 512]⟩ : Shape).Idx → ℝ)
  (lr : (⟨1, ![512]⟩ : Shape).Idx → ℝ)

/-- The inverse variance of a real log-variance is the real exp(−lcd_k). -/
theorem invVar_coe (k : Fin 512) :
    invVar (fun i => (lr i : EReal)) k = ((Real.exp (-(lr (ix1 k))) : ℝ) : EReal) := by
  show Ideal.exp (-((lr (ix1 k) : ℝ) : EReal)) = _
  rw [← EReal.coe_neg, Ideal.exp_coe]

/-- Σ_k (z·w)·mu over reals is a real. -/
theorem cross_coe (n : Fin 8192) (c : Fin 2048) :
    cross (fun i => (zr i : EReal)) (fun i => (mur i : EReal)) (fun i => (lr i : EReal)) n c
      = ((∑ k : Fin 512, (zr (ix2 n k) * Real.exp (-(lr (ix1 k)))) * mur (ix2 c k) : ℝ) : EReal) := by
  unfold cross
  rw [← coe_sum]
  refine Finset.sum_congr rfl fun k _ => ?_
  rw [invVar_coe, EReal.coe_mul, EReal.coe_mul]

/-- 0 + Σ_k (z·z)·w over reals is the real Σ_k z²·w. -/
theorem zSqRef_coe (n : Fin 8192) :
    zSqRef (fun i => (zr i : EReal)) (fun i => (lr i : EReal)) n
      = ((∑ k : Fin 512, (zr (ix2 n k) * zr (ix2 n k)) * Real.exp (-(lr (ix1 k))) : ℝ) : EReal) := by
  unfold zSqRef
  rw [zero_eq, zero_add, ← coe_sum]
  refine Finset.sum_congr rfl fun k _ => ?_
  rw [invVar_coe, EReal.coe_mul, EReal.coe_mul]

/-- Σ_k (z·w)·z over reals is the same real Σ_k z²·w. -/
theorem zSqKer_coe (n : Fin 8192) :
    zSqKer (fun i => (zr i : EReal)) (fun i => (lr i : EReal)) n
      = ((∑ k : Fin 512, (zr (ix2 n k) * zr (ix2 n k)) * Real.exp (-(lr (ix1 k))) : ℝ) : EReal) := by
  unfold zSqKer
  rw [← coe_sum]
  refine Finset.sum_congr rfl fun k _ => ?_
  rw [invVar_coe, EReal.coe_mul, EReal.coe_mul, mul_right_comm]

/-- 0 + Σ_k (mu·mu)·w over reals is a real. -/
theorem muSq_coe (c : Fin 2048) :
    muSq (fun i => (mur i : EReal)) (fun i => (lr i : EReal)) c
      = ((∑ k : Fin 512, (mur (ix2 c k) * mur (ix2 c k)) * Real.exp (-(lr (ix1 k))) : ℝ) : EReal) := by
  unfold muSq
  rw [zero_eq, zero_add, ← coe_sum]
  refine Finset.sum_congr rfl fun k _ => ?_
  rw [invVar_coe, EReal.coe_mul, EReal.coe_mul]

/-- 0 + Σ_j lcd_j over reals is a real. -/
theorem logDet_coe :
    logDet (fun i => (lr i : EReal)) = ((∑ j : (⟨1, ![512]⟩ : Shape).Idx, lr j : ℝ) : EReal) := by
  unfold logDet
  rw [zero_eq, zero_add, ← coe_sum]

end Reals

/-! ### The law -/

/-- The two arrangements of the score agree whenever z, mu and lcd are finite; lp may be any extended real. -/
theorem refForm_eq_kerForm
    (z : (⟨2, ![8192, 512]⟩ : Shape).Idx → EReal) (mu : (⟨2, ![2048, 512]⟩ : Shape).Idx → EReal)
    (lcd : (⟨1, ![512]⟩ : Shape).Idx → EReal) (lp : (⟨1, ![2048]⟩ : Shape).Idx → EReal)
    (hz : ∀ i, ∃ r : ℝ, z i = (r : EReal)) (hmu : ∀ i, ∃ r : ℝ, mu i = (r : EReal)) (hlcd : ∀ i, ∃ r : ℝ, lcd i = (r : EReal))
    (n : Fin 8192) (c : Fin 2048) :
    refForm z mu lcd lp n c = kerForm z mu lcd lp n c := by
  choose zr hzr using hz
  choose mur hmur using hmu
  choose lr hlr using hlcd
  obtain rfl : z = fun i => (zr i : EReal) := funext hzr
  obtain rfl : mu = fun i => (mur i : EReal) := funext hmur
  obtain rfl : lcd = fun i => (lr i : EReal) := funext hlr
  unfold refForm kerForm bias
  rw [cross_coe, zSqRef_coe, zSqKer_coe, muSq_coe, logDet_coe, half_eq, two_eq]
  exact scalar_law _ _ _ _ _

end Cert.Lda
end
-- ==== Proof.Finite.lean ====
/-
  From "every float input is finite" to "every entry is a real number".

  The precondition tests, for each input array x, that |x| < +∞ holds at every entry, and takes the conjunction of the
  four tests. Over the extended reals a float is an element of [-∞, +∞], |x| is max x (-x), and the word 0x7F800000
  is +∞. An extended real whose absolute value is strictly below +∞ is neither -∞ nor +∞ (both have absolute value
  +∞), so it is a real number. A conjunction over all entries of an array that comes out true was true at every entry.
-/
import proofs.«168030_j54116587929770_2_alg».proof.Pre_finite_inputs
import Idealize.ShloMosaic.PureOps.Ideal
import Idealize.ShloMosaic.PureOps.Ideal.Laws
import Idealize.ShloMosaic.Lib.ReduceAll
import Idealize.ShloMosaic.Lib.ValueIdx
noncomputable section
namespace Cert.Lda.Finite
open Idealize.ShloMosaic

/-- The rank-0 shape has exactly one index. -/
instance : Subsingleton Cert.Pre_finite_inputs.S_.Idx := ⟨fun _ _ => funext fun d => d.elim0⟩

/-- The word 0x7F800000 (sign 0, exponent field all ones, fraction 0) is +∞. -/
theorem inf_word : Ideal.ofBits .f32 0x7F800000#32 = (⊤ : EReal) := by simp [Ideal.ofBits, Ideal.ieee]

/-- An extended real whose absolute value max x (-x) tests strictly below +∞ is a real number:
    at -∞ and at +∞ the absolute value is +∞, which is not below +∞. -/
theorem real_of_abs_lt_inf (x : EReal)
    (h : Ideal.cmp .olt (max x (-x)) (Ideal.ofBits .f32 0x7F800000#32) = 1#1) : ∃ r : ℝ, x = (r : EReal) := by
  rw [inf_word] at h
  unfold Ideal.cmp at h
  induction x using EReal.rec with
  | bot => simp at h
  | coe r => exact ⟨r, rfl⟩
  | top => simp at h

/-- The test "|x| < +∞ at every entry" of an array of any shape, taken as a conjunction over all its axes into a
    scalar: when it is true, every entry of x is a real number. -/
theorem reals_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
        (cmpf .olt (Host.absf x) (broadcastInDim s ![] hb (constant (F := Ideal) Cert.Pre_finite_inputs.S_ .f32 0x7F800000#32)))
        (constantI Cert.Pre_finite_inputs.S_ 1 1#1) hr hu ValueIdx.ix0 = 1#1) (i : s.Idx) :
    ∃ r : ℝ, x i = (r : EReal) :=
  -- entry i of the compared array is the test max (x i) (-(x i)) < +∞, and a true conjunction was true there
  real_of_abs_lt_inf (x i) (Host.reduce_andi_all _ _ hr hu ValueIdx.ix0 h i)

/-- Under the precondition every entry of the first three inputs is a real number. -/
theorem reals_of_pre [Cert.Pre_finite_inputs.Facts]
    (x0 : FVec Ideal ⟨2, ![8192, 512]⟩ .f32) (x1 : FVec Ideal ⟨2, ![2048, 512]⟩ .f32)
    (x2 : FVec Ideal ⟨1, ![512]⟩ .f32) (x3 : FVec Ideal ⟨1, ![2048]⟩ .f32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) := by
  -- the scalar result at its one index, with the chain of operations that computes it laid open
  have e := congrFun h ValueIdx.ix0
  dsimp only [Cert.Pre_finite_inputs.fn, Cert.Pre_finite_inputs.fn_part1] at e
  -- the result is the conjunction ((all0 ∧ all1) ∧ all2) ∧ all3 of the four tests; the fourth is not needed
  obtain ⟨e012, -⟩ := IntOp.andi_eq_one.1 (show IntOp.andi _ _ = 1#1 from e)
  obtain ⟨e01, e2⟩ := IntOp.andi_eq_one.1 (show IntOp.andi _ _ = 1#1 from e012)
  obtain ⟨e0, e1⟩ := IntOp.andi_eq_one.1 (show IntOp.andi _ _ = 1#1 from e01)
  exact ⟨reals_of_all x0 _ _ _ e0, reals_of_all x1 _ _ _ e1, reals_of_all x2 _ _ _ e2⟩

end Cert.Lda.Finite
end
-- ==== Proof.RefValue.lean ====
/-
  The reference program's result, read at one index (n, c), is the score with the square expanded inside the bracket
  (`Cert.Lda.refForm`): the log-prior of class c minus half of
  ((Σ_k z[n,k]²·w_k − 2·Σ_k (z[n,k]·w_k)·mu[c,k]) + Σ_k mu[c,k]²·w_k) + Σ_j lcd_j, with w_k = exp(−lcd_k).
  The log-prior is kept as the stage that computes it: nothing here opens the log-softmax.

  Each stage of the program is read at an index by the generated read lemmas; what is added here is which index of each
  operand an output index reaches through the broadcasts (a row vector laid along every row, a column along every
  column, a scalar everywhere) and through the two contractions.
-/
import proofs.«168030_j54116587929770_2_alg».proof.Proof.ReadP
import proofs.«168030_j54116587929770_2_alg».proof.Proof.Spec

noncomputable section

open scoped BigOperators

namespace Cert.Lda.RefValue

open Cert.ReferenceIdeal Cert.ReferenceIdeal.ReadP Idealize.ShloMosaic Idealize.ShloMosaic.ValueIdx

variable (x0 : (⟨S8192x512, .f32⟩ : BufTy).Contents (Elt Ideal)) (x1 : (⟨S2048x512, .f32⟩ : BufTy).Contents (Elt Ideal))
  (x2 : (⟨S512, .f32⟩ : BufTy).Contents (Elt Ideal)) (x3 : (⟨S2048, .f32⟩ : BufTy).Contents (Elt Ideal))

/-- The inverse variances, as the program computes them, at feature k. -/
theorem invVar_apply (k : Fin 512) : val_main_v1 (F := Ideal) x2 (ix1 k) = Cert.Lda.invVar x2 k := rfl

/-- The inverse variances laid along every row of a sample-sized array. -/
theorem row_z (n : Fin 8192) (k : Fin 512) : val_main_v4 (F := Ideal) x2 (ix2 n k) = Cert.Lda.invVar x2 k := by
  rw [val_main_v4_apply, val_main_v3_apply]
  have e : idx_main_v3 (idx_main_v4 (ix2 n k)) = ix1 k := funext fun a => Fin.ext (by match a with | ⟨0, _⟩ => rfl)
  rw [e]; try rfl

/-- The same row laid along every row of a class-sized array. -/
theorem row_mu (c : Fin 2048) (k : Fin 512) : val_main_v9 (F := Ideal) x2 (ix2 c k) = Cert.Lda.invVar x2 k := by
  rw [val_main_v9_apply, val_main_v8_apply]
  have e : idx_main_v8 (idx_main_v9 (ix2 c k)) = ix1 k := funext fun a => Fin.ext (by match a with | ⟨0, _⟩ => rfl)
  rw [e]; try rfl

/-- And once more for the weighted samples. -/
theorem row_zw (n : Fin 8192) (k : Fin 512) : val_main_v13 (F := Ideal) x2 (ix2 n k) = Cert.Lda.invVar x2 k := by
  rw [val_main_v13_apply, val_main_v12_apply]
  have e : idx_main_v12 (idx_main_v13 (ix2 n k)) = ix1 k := funext fun a => Fin.ext (by match a with | ⟨0, _⟩ => rfl)
  rw [e]; try rfl

/-- Sample n's weighted square norm: the square taken first, summed from the initial zero. -/
theorem zsq_apply (n : Fin 8192) : val_main_v6 (F := Ideal) x0 x2 (ix1 n) = Cert.Lda.zSqRef x0 x2 n := by
  rw [val_main_v6_apply]
  refine congrArg (Cert.Lda.zero + ·) (Finset.sum_congr rfl fun k _ => ?_)
  have e : idx_main_v6 (ix1 n) k = ix2 n k := funext fun a => Fin.ext (by match a with | ⟨0, _⟩ => rfl | ⟨1, _⟩ => rfl)
  rw [e, val_main_v5_apply, val_main_v2_apply, row_z]; try rfl

/-- Class c's weighted square norm. -/
theorem musq_apply (c : Fin 2048) : val_main_v11 (F := Ideal) x1 x2 (ix1 c) = Cert.Lda.muSq x1 x2 c := by
  rw [val_main_v11_apply]
  refine congrArg (Cert.Lda.zero + ·) (Finset.sum_congr rfl fun k _ => ?_)
  have e : idx_main_v11 (ix1 c) k = ix2 c k := funext fun a => Fin.ext (by match a with | ⟨0, _⟩ => rfl | ⟨1, _⟩ => rfl)
  rw [e, val_main_v10_apply, val_main_v7_apply, row_mu]; try rfl

/-- The contraction of the weighted sample n with class c over the features. -/
theorem cross_apply (n : Fin 8192) (c : Fin 2048) : val_main_v15 (F := Ideal) x0 x1 x2 (ix2 n c) = Cert.Lda.cross x0 x1 x2 n c := by
  rw [val_main_v15_apply]
  refine Finset.sum_congr rfl fun k _ => ?_
  have el : lidx_main_v15 (ix2 n c) k = ix2 n k := funext fun a => Fin.ext (by match a with | ⟨0, _⟩ => rfl | ⟨1, _⟩ => rfl)
  have er : ridx_main_v15 (ix2 n c) k = ix2 c k := funext fun a => Fin.ext (by match a with | ⟨0, _⟩ => rfl | ⟨1, _⟩ => rfl)
  rw [el, er, val_main_v14_apply, row_zw]; try rfl

/-- The log-determinant: the sum of all of lcd from the initial zero. -/
theorem logDet_apply (i : S_.Idx) : val_main_v24 (F := Ideal) x2 i = Cert.Lda.logDet x2 := by
  rw [val_main_v24_apply]; try rfl

/-- THE REFERENCE AT (n, c). -/
theorem ref_apply (n : Fin 8192) (c : Fin 2048) :
    val_main_v32 (F := Ideal) x0 x1 x2 x3 (ix2 n c)
      = Cert.Lda.refForm x0 x1 x2 (val_main_v25 (F := Ideal) x3) n c := by
  have e31 : idx_main_v26 (idx_main_v31 (ix2 n c)) = ix1 c := funext fun a => Fin.ext (by match a with | ⟨0, _⟩ => rfl)
  have e22 : idx_main_v21 (idx_main_v22 (ix2 n c)) = ix1 c := funext fun a => Fin.ext (by match a with | ⟨0, _⟩ => rfl)
  have e19 : idx_main_v16 (idx_main_v19 (ix2 n c)) = ix1 n := funext fun a => Fin.ext (by match a with | ⟨0, _⟩ => rfl)
  rw [val_main_v32_apply, val_main_v31_apply, val_main_v26_apply, e31,
    val_main_v30_apply, val_main_v29_apply, val_main_cst_3_apply,
    val_main_v28_apply, val_main_v27_apply, logDet_apply,
    val_main_v23_apply, val_main_v22_apply, val_main_v21_apply, e22, musq_apply,
    val_main_v20_apply, val_main_v19_apply, val_main_v16_apply, e19, zsq_apply,
    val_main_v18_apply, val_main_v17_apply, val_main_cst_1_apply, cross_apply]
  try rfl

end Cert.Lda.RefValue

end
-- ==== Proof.HostGlue.lean ====
/-
  The three arrays the host prepares before the kernel is launched, each read at an index.

  From the argument arrays the host computes, once: the inverse variances w = exp(−lcd), viewed as one row [1, 512];
  the class means transposed to [512, 2048] (and rounded to a narrower float format, which changes nothing on the
  extended reals); and the bias of every class, bias(c) = lp(c) − ½·(Σ_k mu[c,k]²·w_k + Σ_j lcd_j), viewed as one
  row [1, 2048], where lp is the log-prior: the log-softmax of the prior logits, kept here as one unopened function
  (`logPrior`). Read at an index these are the spec's `invVar`, the means with their two coordinates exchanged, and the
  spec's `bias`.
-/
import proofs.«168030_j54116587929770_2_alg».proof.Proof.Gen.KernelIdeal.Frame
import proofs.«168030_j54116587929770_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

open scoped BigOperators

namespace Cert.Lda.HostGlue

open Cert.KernelIdeal Cert.KernelIdeal.Gen Idealize.ShloMosaic Idealize.ShloMosaic.TcCoe Idealize.SL.Sem Idealize.ShloMosaic.StableHlo
open Idealize.ShloMosaic.ValueIdx

/-! ## The host's stages as functions of the argument arrays -/

variable (x1 : FVec Ideal S2048x512 .f32) (x2 : FVec Ideal S512 .f32) (x3 : FVec Ideal S2048 .f32)

/-- The log-prior of the classes: the log-softmax of the prior logits, as the host computes it (subtract the maximum,
    then the logarithm of the sum of the exponentials). Never opened. -/
def logPrior : FVec Ideal S2048 .f32 :=
  subf (subf x3 (broadcastInDim S2048 ![0] bcast_S1_S2048_0 (broadcastInDim S1 ![] bcast_S_S1 (maximumf (constant (F := Ideal) S_ .f32 0xFF800000#32) (Host.reduce FloatOps.maximumf x3 (constant (F := Ideal) S_ .f32 0xFF800000#32) reducesTo_S2048_S_d0 h_S_)))))
    (broadcastInDim S2048 ![0] bcast_S1_S2048_0 (Host.log (broadcastInDim S1 ![] bcast_S_S1 (Host.reduceAdd (Host.exp (subf x3 (broadcastInDim S2048 ![0] bcast_S1_S2048_0 (broadcastInDim S1 ![] bcast_S_S1 (maximumf (constant (F := Ideal) S_ .f32 0xFF800000#32) (Host.reduce FloatOps.maximumf x3 (constant (F := Ideal) S_ .f32 0xFF800000#32) reducesTo_S2048_S_d0 h_S_)))))) (constant (F := Ideal) S_ .f32 0x00000000#32) reducesTo_S2048_S_d0 h_S_))))

/-- The inverse variances. -/
def invVarHost : FVec Ideal S512 .f32 := Host.exp (Host.negf x2)

/-- Every class's weighted square norm. -/
def muSqHost : FVec Ideal S2048 .f32 :=
  Host.reduceAdd (mulf (mulf x1 x1) (broadcastInDim S2048x512 ![0, 1] bcast_S1x512_S2048x512_0_1 (broadcastInDim S1x512 ![1] bcast_S512_S1x512_1 (invVarHost x2))))
    (constant (F := Ideal) S_ .f32 0x00000000#32) reducesTo_S2048x512_S2048_d1 h_S_

/-- The log-determinant. -/
def logDetHost : FVec Ideal S_ .f32 := Host.reduceAdd x2 (constant (F := Ideal) S_ .f32 0x00000000#32) reducesTo_S512_S_d0 h_S_

/-- The class means with their two coordinates exchanged (and rounded to a narrower format: the identity here). -/
def meansTHost : FVec Ideal S512x2048 .bf16 :=
  truncf .bf16 (transpose S512x2048 [1, 0] x1 transposes_S2048x512_S512x2048_1_0) bitsLt_bf16_f32

/-- Every class's bias. -/
def biasHost : FVec Ideal S2048 .f32 :=
  subf (logPrior x3) (mulf (broadcastInDim S2048 ![] bcast_S_S2048 (constant (F := Ideal) S_ .f32 0x3F000000#32))
    (addf (muSqHost x1 x2) (broadcastInDim S2048 ![] bcast_S_S2048 (logDetHost x2))))

/-! ## Read at an index -/

theorem invVarHost_apply (k : Fin 512) : invVarHost x2 (ix1 k) = Cert.Lda.invVar x2 k := rfl

/-- A vector of 512 entries laid along every row of a class-sized array: entry (c, k) is entry k. -/
theorem rowBroadcast_apply (v : FVec Ideal S512 .f32) (c : Fin 2048) (k : Fin 512) :
    broadcastInDim S2048x512 ![0, 1] bcast_S1x512_S2048x512_0_1 (broadcastInDim S1x512 ![1] bcast_S512_S1x512_1 v) (ix2 c k) = v (ix1 k) := by
  refine (broadcastInDim_apply _ bcast_S1x512_S2048x512_0_1 _ (ix2 c k) (ix2 (0 : Fin 1) k) (fun a => match a with
    | ⟨0, _⟩ => by show 0 = if (1 : Nat) = 1 then 0 else c.val; rw [if_pos rfl]
    | ⟨1, _⟩ => by show k.val = if (512 : Nat) = 1 then 0 else k.val; rw [if_neg (by decide)])).trans ?_
  exact broadcastInDim_apply _ bcast_S512_S1x512_1 v (ix2 (0 : Fin 1) k) (ix1 k) (fun a => match a with
    | ⟨0, _⟩ => by show k.val = if (512 : Nat) = 1 then 0 else k.val; rw [if_neg (by decide)])

/-- A scalar spread over the classes: every entry is the scalar. -/
theorem scalarBroadcast_apply (y : FVec Ideal S_ .f32) (q : Fin 2048) :
    broadcastInDim S2048 ![] bcast_S_S2048 y (ix1 q) = y ix0 :=
  broadcastInDim_apply _ bcast_S_S2048 y (ix1 q) ix0 (fun a => a.elim0)

/-- Class c's weighted square norm is the sum over the features, from the initial zero. -/
theorem muSqHost_apply (c : Fin 2048) : muSqHost x1 x2 (ix1 c) = Cert.Lda.muSq x1 x2 c := by
  have hR : S2048x512.Reduces [1] S2048 := by decide
  unfold muSqHost
  simp only [Host.reduceAdd, Ideal.hostReduceAdd_def]
  rw [Ideal.hostReduceAdd_single reducesTo_S2048x512_S2048_d1 hR]
  refine congrArg₂ (· + ·) rfl (Finset.sum_congr rfl fun (k : Fin 512) _ => ?_)
  have e : hR.lift (ix1 c) k = ix2 c k := funext fun a => Fin.ext (by match a with | ⟨0, _⟩ => rfl | ⟨1, _⟩ => rfl)
  rw [e]
  exact congrArg (x1 (ix2 c k) * x1 (ix2 c k) * ·) (rowBroadcast_apply (invVarHost x2) c k)

/-- The log-determinant is the sum of all of lcd, from the initial zero. -/
theorem logDetHost_apply (i : S_.Idx) : logDetHost x2 i = Cert.Lda.logDet x2 := by
  unfold logDetHost
  simp only [Host.reduceAdd, Ideal.hostReduceAdd_def]
  exact (Ideal.hostReduceAdd_total reducesTo_S512_S_d0 (fun b => b.elim0) x2 _ i).trans rfl

/-- Class q's bias. -/
theorem biasHost_apply (q : Fin 2048) : biasHost x1 x2 x3 (ix1 q) = Cert.Lda.bias x1 x2 (logPrior x3) q := by
  show logPrior x3 (ix1 q) - broadcastInDim S2048 ![] bcast_S_S2048 (constant (F := Ideal) S_ .f32 0x3F000000#32) (ix1 q)
      * (muSqHost x1 x2 (ix1 q) + broadcastInDim S2048 ![] bcast_S_S2048 (logDetHost x2) (ix1 q)) = _
  rw [scalarBroadcast_apply, scalarBroadcast_apply, muSqHost_apply, logDetHost_apply]
  rfl

/-! ## The arrays as the kernel's region finds them -/

/-- Contents moved to a buffer's own type and back are the contents (the log-softmax is a called function, and each of
    its values passes through its buffer this way). -/
theorem ofBuf_toBuf {sig : RefSig} {T : BufTy} {Val : EltTy → Type} (x : StableHlo.TRef sig T) (v : T.Contents Val) :
    x.ofBuf (x.toBuf v) = v := by
  obtain ⟨r, h, h1, h2⟩ := x
  subst h
  rfl

variable (m : (ℓ : Loc nD τ sig) → Buf (Elt Ideal) ℓ)

/-- The row of inverse variances. -/
theorem V_invVar (c : Dev nD) : (V m c main_v15 : S1x512.Idx → EReal)
    = shapeCast S1x512 (invVarHost (m ((c : Thread nD τ).loc main_arg2))) shapeCasts_S512_S1x512 := by
  dsimp only [Gen.V]
  simp only [Gen.hostOps0, Gen.hostOps0_1, Gen.hostOps0_2, List.flatten_cons, List.flatten_nil, List.append_nil, List.cons_append, List.nil_append]
  after_results_simp
  rfl

/-- The transposed means. -/
theorem V_meansT (c : Dev nD) : (V m c main_v17 : S512x2048.Idx → EReal)
    = meansTHost (m ((c : Thread nD τ).loc main_arg1)) := by
  dsimp only [Gen.V]
  simp only [Gen.hostOps0, Gen.hostOps0_1, Gen.hostOps0_2, List.flatten_cons, List.flatten_nil, List.append_nil, List.cons_append, List.nil_append]
  after_results_simp
  rfl

set_option maxHeartbeats 4000000 in
/-- The row of biases. -/
theorem V_bias (c : Dev nD) : (V m c main_v14 : S1x2048.Idx → EReal)
    = shapeCast S1x2048 (biasHost (m ((c : Thread nD τ).loc main_arg1)) (m ((c : Thread nD τ).loc main_arg2)) (m ((c : Thread nD τ).loc main_arg3)))
        shapeCasts_S2048_S1x2048 := by
  dsimp only [Gen.V]
  simp only [Gen.hostOps0, Gen.hostOps0_1, Gen.hostOps0_2, List.flatten_cons, List.flatten_nil, List.append_nil, List.cons_append, List.nil_append]
  after_results_simp
  simp only [ofBuf_toBuf]
  unfold biasHost logPrior muSqHost logDetHost invVarHost
  rfl

/-- Entry k of the row of inverse variances. -/
theorem invVar_row (c : Dev nD) (k : Fin 512) :
    (V m c main_v15 : S1x512.Idx → EReal) (ix2 (0 : Fin 1) k) = Cert.Lda.invVar (m ((c : Thread nD τ).loc main_arg2)) k := by
  rw [V_invVar]
  exact (shapeCast_a_1a_apply _ shapeCasts_S512_S1x512 (0 : Fin 1) k).trans rfl

/-- Entry (k, q) of the transposed means is entry (q, k) of the means. -/
theorem meansT_apply (c : Dev nD) (k : Fin 512) (q : Fin 2048) :
    (V m c main_v17 : S512x2048.Idx → EReal) (ix2 k q) = (m ((c : Thread nD τ).loc main_arg1) : S2048x512.Idx → EReal) (ix2 q k) := by
  rw [V_meansT]
  exact transpose_ix2_apply (m ((c : Thread nD τ).loc main_arg1) : S2048x512.Idx → EReal) transposes_S2048x512_S512x2048_1_0 k q

/-- Entry q of the row of biases. -/
theorem bias_row (c : Dev nD) (q : Fin 2048) :
    (V m c main_v14 : S1x2048.Idx → EReal) (ix2 (0 : Fin 1) q)
      = Cert.Lda.bias (m ((c : Thread nD τ).loc main_arg1)) (m ((c : Thread nD τ).loc main_arg2))
          (logPrior (m ((c : Thread nD τ).loc main_arg3))) q := by
  rw [V_bias]
  exact (shapeCast_a_1a_apply _ shapeCasts_S2048_S1x2048 (0 : Fin 1) q).trans (biasHost_apply _ _ _ q)

end Cert.Lda.HostGlue

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.LibUnitAxis.lean ====
/-
  Casts and broadcasts across a unit axis, read at an index, at any extents.

  A `keepdims` reduction leaves a unit axis behind, and a row-wise statistic is spread back over its row through one:
  a matrix `[a, b]` is viewed as `[a, 1, b]` and back, a vector `[a]` as the column `[a, 1]`, and a unit axis is
  broadcast over many. A cast keeps every element's row-major position, and a unit axis contributes nothing to it;
  a broadcast reads the operand at the same coordinates, except 0 on each unit axis. The five forms below are stated
  over the literal-size index constructors `ix1 … ix3`, so that they fire on indices built from coordinates.
-/
import Idealize.ShloMosaic.Lib.Pipeline.Value
import Idealize.ShloMosaic.Lib.ValueIdx
import Idealize.ShloMosaic.Lib.ValueLayout
noncomputable section
open Idealize.ShloMosaic Idealize.ShloMosaic.ValueIdx
namespace Cert.Lib.UnitAxis

/-! ## The five forms

A matrix viewed with a unit middle axis and back, a vector viewed as one column, and a unit axis broadcast over
many. Each is a statement about row-major positions (a cast) or about which coordinates are kept (a broadcast). -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array broadcast to `[a, m, b]` reads, at `(p, q, c)`, the operand at `(p, 0, c)`. -/
theorem broadcastTo_a1b_amb_apply {a m b : ℕ} (v : (⟨3, ![a, 1, b]⟩ : Shape).Idx → α)
    (h : (⟨3, ![a, 1, b]⟩ : Shape).Broadcasts ⟨3, ![a, m, b]⟩) (p : Fin a) (q : Fin m) (c : Fin b) :
    broadcastTo ⟨3, ![a, m, b]⟩ v h (ix3 p q c) = v (ix3 p (0 : Fin 1) c) := by
  refine broadcastTo_apply v h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

end Layout

end Cert.Lib.UnitAxis

end
-- ==== Proof.Payload.lean ====
/-
  The kernel body's stored value, read at one index, at the extended reals.

  From a block x of samples (1024×512), a row w of inverse variances (1×512), a block m of transposed class means
  (512×2048) and a bias row b (1×2048), the body stores, at (p, q),

      (∑ₖ (x[p,k] · w[k]) · m[k,q]) + b[q] − ½ · ∑ₖ (x[p,k] · w[k]) · x[p,k].

  Each non-pointwise operation is read at an index by a lemma of its own, over variables: the row sum over the 512
  columns, the matrix product into the zero accumulator, and the column-wise scaling by a broadcast row. The casts to
  the same shape are the identity, the rounding of the product's left operand is the identity at the extended reals,
  a row broadcast down the rows reads its one row, and the column of half quadratic forms broadcast along the row
  reads its entry of that row.
-/
import proofs.«168030_j54116587929770_2_alg».proof.Proof.Gen.KernelIdeal.Skeleton
import proofs.«168030_j54116587929770_2_alg».proof.Proof.LibMatmul
import proofs.«168030_j54116587929770_2_alg».proof.Proof.LibUnitAxis
import Idealize.ShloMosaic.PureOps.Ideal.Laws
import Idealize.ShloMosaic.Lib.Pipeline.Value
import Idealize.ShloMosaic.Lib.ValueIdx
import Idealize.ShloMosaic.Lib.ValueLayout
noncomputable section
open scoped BigOperators
namespace Cert.Lda.Payload
open Idealize.ShloMosaic Idealize.ShloMosaic.ValueIdx Cert.KernelIdeal

/-- The row sum of a 1024×512 block, read at row p: the sum over the 512 columns. -/
theorem rowsum_apply (src : FVec Ideal S1024x512 .f32) (p : Fin 1024) :
    multiReduction .add [1] S1024 src 0x00000000#32 Gen.reduces_S1024x512_S1024 (.inl rfl) rfl (ix1 p)
      = ∑ k : Fin 512, src (ix2 p k) := by
  refine (Ideal.multiReduction_add_single src 0x00000000#32 Gen.reduces_S1024x512_S1024 _ _ (ix1 p)).trans ?_
  refine Finset.sum_congr rfl fun k _ => congrArg src ?_
  -- the reduced index (p) with the coordinate k inserted on axis 1 is (p, k)
  funext a
  refine Fin.ext ?_
  match a with
  | ⟨0, _⟩ => rfl
  | ⟨1, _⟩ => rfl

/-- The product of a 1024×512 block with a 512×2048 block into the zero accumulator, read at (p, q):
    the dimension numbers contract the left operand's axis 1 with the right operand's axis 0. -/
theorem matmul_apply {φ₁ φ₂ : FTy} (Lm : FVec Ideal S1024x512 φ₁) (Rm : FVec Ideal S512x2048 φ₂) (p : Fin 1024) (q : Fin 2048) :
    matmul dot_S1024x512_S512x2048_S1024x2048_1_0_0_1_n_n none Lm Rm (constant S1024x2048 .f32 0x00000000#32) (ix2 p q)
      = ∑ k : Fin 512, Lm (ix2 p k) * Rm (ix2 k q) :=
  Cert.Bridge.LibMatmul.matmul_zero_apply (M := 1024) (K := 512) (N := 2048) none Lm Rm p q

/-- The samples scaled column by column by a row of weights, read at (p, k). -/
theorem scaled_apply (x : FVec Ideal S1024x512 .f32) (w : FVec Ideal S1x512 .f32) (p : Fin 1024) (k : Fin 512) :
    mulf x (broadcastTo S1024x512 (shapeCast S1x512 w Gen.shapeCasts_S1x512_S1x512) Gen.broadcasts_S1x512_S1024x512) (ix2 p k)
      = x (ix2 p k) * w (ix2 (0 : Fin 1) k) :=
  congrArg (x (ix2 p k) * ·)
    ((broadcastTo_1b_ab_apply (shapeCast S1x512 w Gen.shapeCasts_S1x512_S1x512) Gen.broadcasts_S1x512_S1024x512 p k).trans
      (congrFun (shapeCast_self w Gen.shapeCasts_S1x512_S1x512) (ix2 (0 : Fin 1) k)))

/-- The stored value at (p, q), over blocks typed as float vectors. With y = x scaled by the row w:
    (y · m)[p, q] + b[q] − ½ · ∑ₖ y[p, k] · x[p, k]. -/
theorem pay_apply_fvec (x : FVec Ideal S1024x512 .f32) (w : FVec Ideal S1x512 .f32) (m : FVec Ideal S512x2048 .bf16)
    (b : FVec Ideal S1x2048 .f32) (p : Fin 1024) (q : Fin 2048) :
    Cert.KernelIdeal.Gen.k0_pay1 (F := Ideal) x w m b (ix2 p q)
      = ((∑ k : Fin 512, (x (ix2 p k) * w (ix2 (0 : Fin 1) k)) * m (ix2 k q)) + b (ix2 (0 : Fin 1) q))
        - Ideal.ofBits .f32 0x3F000000#32 * (∑ k : Fin 512, (x (ix2 p k) * w (ix2 (0 : Fin 1) k)) * x (ix2 p k)) := by
  unfold Cert.KernelIdeal.Gen.k0_pay1
  refine congrArg₂ (· - ·) (congrArg₂ (· + ·) ?_ ?_) ?_
  · -- the product: rounding the left operand to bf16 and the identity cast of the right one change nothing
    refine (matmul_apply _ _ p q).trans ?_
    refine Finset.sum_congr rfl fun k _ => congrArg₂ (· * ·) (scaled_apply x w p k) ?_
    exact congrFun (shapeCast_self m Gen.shapeCasts_S512x2048_S512x2048) (ix2 k q)
  · -- the bias row, broadcast down the rows
    exact (broadcastTo_1b_ab_apply (shapeCast S1x2048 b Gen.shapeCasts_S1x2048_S1x2048) Gen.broadcasts_S1x2048_S1024x2048 p q).trans
      (congrFun (shapeCast_self b Gen.shapeCasts_S1x2048_S1x2048) (ix2 (0 : Fin 1) q))
  · -- half the row's quadratic form, as a column broadcast along the row
    refine (Cert.Lib.UnitAxis.broadcastTo_a1_ab_apply _ Gen.broadcasts_S1024x1_S1024x2048 p q).trans ?_
    refine congrArg (Ideal.ofBits .f32 0x3F000000#32 * ·) ?_
    refine (Cert.Lib.UnitAxis.shapeCast_a_a1_apply _ Gen.shapeCasts_S1024_S1024x1 p (0 : Fin 1)).trans ?_
    refine (rowsum_apply _ p).trans ?_
    exact Finset.sum_congr rfl fun k _ => congrArg (· * x (ix2 p k)) (scaled_apply x w p k)

/-- The kernel body's stored value at (p, q), over the four loaded blocks. -/
theorem pay_apply (v0 : Vec Ideal S1024x512 .f32) (v1 : Vec Ideal S1x512 .f32) (v9 : Vec Ideal S512x2048 .bf16) (v12 : Vec Ideal S1x2048 .f32)
    (p : Fin 1024) (q : Fin 2048) :
    Cert.KernelIdeal.Gen.k0_pay1 (F := Ideal) v0 v1 v9 v12 (ix2 p q)
      = ((∑ k : Fin 512, (v0 (ix2 p k) * v1 (ix2 (0 : Fin 1) k)) * v9 (ix2 k q)) + v12 (ix2 (0 : Fin 1) q))
        - Ideal.ofBits .f32 0x3F000000#32 * (∑ k : Fin 512, (v0 (ix2 p k) * v1 (ix2 (0 : Fin 1) k)) * v0 (ix2 p k)) :=
  pay_apply_fvec v0 v1 v9 v12 p q

end Cert.Lda.Payload
end
-- ==== Proof.KernelValue.lean ====
/-
  From blocks to the array. The grid has eight points; point t works on samples 1024·t … 1024·t + 1023 and on every
  class. Its sample block is those rows of the sample array; the transposed means, the row of inverse variances and the
  row of biases are the same whole arrays at every point. What point t writes back is therefore rows
  1024·t … 1024·t + 1023 of ONE function of the argument arrays, the score in its bias arrangement
  (`Cert.Lda.G`), and the eight row bands cover the result array: sample n lies in the band of point n / 1024.
-/
import proofs.«168030_j54116587929770_2_alg».proof.Proof.Gen.KernelIdeal.Value
import proofs.«168030_j54116587929770_2_alg».proof.Proof.Payload
import proofs.«168030_j54116587929770_2_alg».proof.Proof.HostGlue
import proofs.«168030_j54116587929770_2_alg».proof.Proof.Spec
import Idealize.ShloMosaic.Lib.Pipeline.Value
import Idealize.ShloMosaic.Lib.ValueIdx

noncomputable section

open scoped BigOperators

namespace Cert.Lda.KernelValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the eight points: the sample window and the result window are at row band t, the other
    three windows at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem lt_eight (t : Fin cfg0.N) : t.val < 8 := Nat.lt_of_lt_of_eq t.isLt N_0

/-- The sample that row p of point t's band is. -/
def rowOf (t : Fin cfg0.N) (p : Fin 1024) : Fin 8192 := ⟨t.val * 1024 + p.val, by have := lt_eight t; have := p.isLt; omega⟩

/-- The result array the kernel ends with: the score of every sample and class, from the argument arrays as launched
    (the log-prior is the host's stage of the prior logits, kept whole). -/
abbrev result (c : Dev nD) : Buf (Elt Ideal) ((c : Thread nD τ).loc main_v18) :=
  Cert.Lda.G (m ((c : Thread nD τ).loc main_arg0)) (m ((c : Thread nD τ).loc main_arg1)) (m ((c : Thread nD τ).loc main_arg2))
    (Cert.Lda.HostGlue.logPrior (m ((c : Thread nD τ).loc main_arg3)))

/-- Point t's sample block is rows 1024·t … of the sample array. -/
theorem sample_block (c : Dev nD) (t : Fin cfg0.N) (p : Fin 1024) (k : Fin 512) :
    (iblk m c 0 t : Vec Ideal S1024x512 .f32) (ix2 p k)
      = (m ((c : Thread nD τ).loc main_arg0) : S8192x512.Idx → EReal) (ix2 (rowOf t p) k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 512 + 1 * k.val = k.val; omega

/-- Point t's block of the transposed means is the whole array. -/
theorem means_block (c : Dev nD) (t : Fin cfg0.N) (k : Fin 512) (q : Fin 2048) :
    (iblk m c 1 t : Vec Ideal S512x2048 .bf16) (ix2 k q) = (V m c main_v17 : S512x2048.Idx → EReal) (ix2 k q) := by
  obtain ⟨-, -, e2, e3, -⟩ := idx_facts t
  unfold iblk
  rw [View.read_apply]
  show V m c main_v17 _ = _
  refine congrArg _ (funext fun a => Fin.ext ?_)
  match a with
  | ⟨0, _⟩ => show win0_1.index t (0 : Fin 2) * 512 + 1 * k.val = k.val; omega
  | ⟨1, _⟩ => show win0_1.index t (1 : Fin 2) * 2048 + 1 * q.val = q.val; omega

/-- Point t's block of the inverse variances is the whole row. -/
theorem invvar_block (c : Dev nD) (t : Fin cfg0.N) (u : Fin 1) (k : Fin 512) :
    (iblk m c 2 t : Vec Ideal S1x512 .f32) (ix2 u k) = (V m c main_v15 : S1x512.Idx → EReal) (ix2 u k) := by
  obtain ⟨-, -, -, -, e4, e5, -⟩ := idx_facts t
  unfold iblk
  rw [View.read_apply]
  show V m c main_v15 _ = _
  refine congrArg _ (funext fun a => Fin.ext ?_)
  match a with
  | ⟨0, _⟩ => show win0_2.index t (0 : Fin 2) * 1 + 1 * u.val = u.val; omega
  | ⟨1, _⟩ => show win0_2.index t (1 : Fin 2) * 512 + 1 * k.val = k.val; omega

/-- Point t's block of the biases is the whole row. -/
theorem bias_block (c : Dev nD) (t : Fin cfg0.N) (u : Fin 1) (q : Fin 2048) :
    (iblk m c 3 t : Vec Ideal S1x2048 .f32) (ix2 u q) = (V m c main_v14 : S1x2048.Idx → EReal) (ix2 u q) := by
  obtain ⟨-, -, -, -, -, -, e6, e7, -⟩ := idx_facts t
  unfold iblk
  rw [View.read_apply]
  show V m c main_v14 _ = _
  refine congrArg _ (funext fun a => Fin.ext ?_)
  match a with
  | ⟨0, _⟩ => show win0_3.index t (0 : Fin 2) * 1 + 1 * u.val = u.val; omega
  | ⟨1, _⟩ => show win0_3.index t (1 : Fin 2) * 2048 + 1 * q.val = q.val; omega

/-- Where row p, column q of point t's result block sits in the result array. -/
theorem result_emb (t : Fin cfg0.N) (p : Fin 1024) (q : Fin 2048) :
    ((cfg0.win 4).blk t).view.emb (ix2 p q) = ix2 (rowOf t p) q := by
  obtain ⟨-, -, -, -, -, -, -, -, e8, e9⟩ := idx_facts t
  refine funext fun a => Fin.ext ?_
  match a with
  | ⟨0, _⟩ => show win0_4.index t (0 : Fin 2) * 1024 + 1 * p.val = t.val * 1024 + p.val; omega
  | ⟨1, _⟩ => show win0_4.index t (1 : Fin 2) * 2048 + 1 * q.val = q.val; omega

/-- The body's value at (p, q) of point t's block is the score of sample 1024·t + p and class q. -/
theorem body_at (c : Dev nD) (t : Fin cfg0.N) (p : Fin 1024) (q : Fin 2048) :
    k0_pay1 (F := Ideal) (iblk m c 0 t) (iblk m c 2 t) (iblk m c 1 t) (iblk m c 3 t) (ix2 p q)
      = Cert.Lda.kerForm (m ((c : Thread nD τ).loc main_arg0)) (m ((c : Thread nD τ).loc main_arg1)) (m ((c : Thread nD τ).loc main_arg2))
          (Cert.Lda.HostGlue.logPrior (m ((c : Thread nD τ).loc main_arg3))) (rowOf t p) q := by
  refine (Cert.Lda.Payload.pay_apply (iblk m c 0 t) (iblk m c 2 t) (iblk m c 1 t) (iblk m c 3 t) p q).trans ?_
  unfold Cert.Lda.kerForm Cert.Lda.cross Cert.Lda.zSqKer
  rw [bias_block m c t (0 : Fin 1) q, Cert.Lda.HostGlue.bias_row m c q]
  refine congrArg₂ (· - ·) (congrArg (· + _) (Finset.sum_congr rfl fun k _ => ?_)) (congrArg (_ * ·) (Finset.sum_congr rfl fun k _ => ?_))
  · rw [sample_block m c t p k, invvar_block m c t (0 : Fin 1) k, Cert.Lda.HostGlue.invVar_row m c k,
      means_block m c t k q, Cert.Lda.HostGlue.meansT_apply m c k q]
  · rw [sample_block m c t p k, invvar_block m c t (0 : Fin 1) k, Cert.Lda.HostGlue.invVar_row m c k]

/-- WHAT POINT t WRITES BACK is its row band of the result. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz]
  simp only [View.ld_unit_zero (S := S1024x512) hz, View.ld_unit_zero (S := S512x2048) hz, View.ld_unit_zero (S := S1x512) hz,
    View.ld_unit_zero (S := S1x2048) hz]
  funext j
  obtain ⟨p, q, rfl⟩ : ∃ (p : Fin 1024) (q : Fin 2048), j = ix2 p q := ⟨j 0, j 1, eq_ix2 j⟩
  show k0_pay1 (F := Ideal) (iblk m c 0 t) (iblk m c 2 t) (iblk m c 1 t) (iblk m c 3 t) (ix2 p q)
      = result m c (((cfg0.win 4).blk t).view.emb (ix2 p q))
  rw [result_emb t p q]
  exact body_at m c t p q

/-- An index of the result array is in point t's block iff each coordinate is in the block's range on its axis. -/
theorem mem_blk (t : Fin cfg0.N) (i : S8192x2048.Idx) :
    i ∈ ((cfg0.win 4).blk t).view.set ↔ ∀ a : Fin 2, win0_4.index t a * S1024x2048.size a ≤ (i a).val
      ∧ (i a).val < win0_4.index t a * S1024x2048.size a + S1024x2048.size a := by
  show i ∈ ((View.whole main_v18).slice (win0_4.rect t)).set ↔ _
  rw [View.set_slice_whole, Rect.mem_set_unit]
  exact Iff.rfl

/-- The eight row bands cover the result array. -/
theorem cover (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  have hN : cfg0.N = 8 := N_0
  have hlt : (i 0).val / 1024 < cfg0.N := by rw [hN]; omega
  obtain ⟨-, -, -, -, -, -, -, -, e8, e9⟩ := idx_facts ⟨(i 0).val / 1024, hlt⟩
  have e8' : win0_4.index ⟨(i 0).val / 1024, hlt⟩ (0 : Fin 2) = (i 0).val / 1024 := e8
  refine ⟨⟨(i 0).val / 1024, hlt⟩, flush0_4 _, ?_⟩
  rw [mem_blk]
  intro a
  match a with
  | ⟨0, _⟩ =>
    show win0_4.index ⟨(i 0).val / 1024, hlt⟩ (0 : Fin 2) * 1024 ≤ (i 0).val
      ∧ (i 0).val < win0_4.index ⟨(i 0).val / 1024, hlt⟩ (0 : Fin 2) * 1024 + 1024
    omega
  | ⟨1, _⟩ =>
    show win0_4.index ⟨(i 0).val / 1024, hlt⟩ (1 : Fin 2) * 2048 ≤ (i 1).val
      ∧ (i 1).val < win0_4.index ⟨(i 0).val / 1024, hlt⟩ (1 : Fin 2) * 2048 + 2048
    omega

/-- THE ARRAY after the run is the score, everywhere. -/
theorem final (c : Dev nD) : (dats m 0 c).arrAt 4 cfg0.N = result m c :=
  (dats m 0 c).arrAt_eq_of_cover 4 (result m c) (fun t _ => flushed_eq m c t) cover

/-- The kernel's run, read: the result array at the score of the argument arrays, the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Lda.KernelValue

end
-- ==== Proof.lean ====
/-
  A diagonal-covariance discriminant head: for 8192 samples z[n,·] and 2048 classes with means mu[c,·], inverse
  variances w_k = exp(−lcd_k) and class log-priors lp = log-softmax(prior logits), the score of sample n for class c is
      lp(c) − ½·( Σ_k (z[n,k] − mu[c,k])²·w_k + Σ_k lcd_k ).
  The reference expands the square inside the bracket:  lp(c) − ½·((zsq(n) − 2·cross(n,c) + musq(c)) + ld).
  The kernel collects what depends on the class alone into a bias computed once outside,
  bias(c) = lp(c) − ½·(musq(c) + ld), contracts the weighted samples with the transposed means on the matrix unit over
  eight bands of 1024 samples, and stores  cross(n,c) + bias(c) − ½·zsq(n).

  On the extended reals the two arrangements agree when the samples, the means and the log-variances are finite:
  then every sum is a real number, and with a real log-prior the equation is a ring identity, while an infinite
  log-prior makes both sides that infinity. Nothing is assumed of the prior logits beyond what the precondition gives,
  and the log-softmax is never opened: both programs apply the same operations to the same logits.

  The modules: `Spec` (the two arrangements as functions of the argument arrays), `Law` (they agree under finiteness),
  `Finite` (the precondition makes every entry of the three arrays a real), `RefValue` (the reference at an index is
  the first arrangement), `Payload` (the kernel body at an index), `HostGlue` (the three arrays the host prepares, at
  an index), `KernelValue` (the eight bands cover the result, which is the second arrangement everywhere).
-/
import proofs.«168030_j54116587929770_2_alg».proof.Defs
import proofs.«168030_j54116587929770_2_alg».proof.Proof.Gen.Kernel
import proofs.«168030_j54116587929770_2_alg».proof.Proof.Gen.Kernel.Frame
import proofs.«168030_j54116587929770_2_alg».proof.Proof.Gen.KernelIdeal
import proofs.«168030_j54116587929770_2_alg».proof.Proof.Gen.KernelIdeal.Frame
import proofs.«168030_j54116587929770_2_alg».proof.Proof.Gen.KernelIdeal.Value
import proofs.«168030_j54116587929770_2_alg».proof.Proof.Gen.ReferenceIdeal
import proofs.«168030_j54116587929770_2_alg».proof.Proof.Gen.Pre_finite_inputs
import proofs.«168030_j54116587929770_2_alg».proof.Proof.RunP
import proofs.«168030_j54116587929770_2_alg».proof.Proof.ReadP
import proofs.«168030_j54116587929770_2_alg».proof.Proof.Spec
import proofs.«168030_j54116587929770_2_alg».proof.Proof.Law
import proofs.«168030_j54116587929770_2_alg».proof.Proof.Finite
import proofs.«168030_j54116587929770_2_alg».proof.Proof.RefValue
import proofs.«168030_j54116587929770_2_alg».proof.Proof.HostGlue
import proofs.«168030_j54116587929770_2_alg».proof.Proof.KernelValue
import Idealize.ShloMosaic.Adequacy
import Idealize.ShloMosaic.Init

noncomputable section

namespace Cert.Proof

open Idealize.ShloMosaic Idealize.ShloMosaic.ValueIdx Idealize.SL.Sem

attribute [local irreducible] Host.reduce Host.reduceAdd Host.exp Host.log in
/-- Both programs compute the log-prior by the same operations of the prior logits: one function (compared with the
    reductions, the exponential and the logarithm kept folded: only their arguments are looked at). -/
theorem logPrior_eq (x3 : (⟨1, ![2048]⟩ : Shape).Idx → EReal) :
    Cert.Lda.HostGlue.logPrior x3 = Cert.ReferenceIdeal.ReadP.val_main_v25 (F := Ideal) x3 := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- The kernel's result array ends at the score in its bias arrangement, the reference's at the score with the square
    expanded, of arguments that agree; under the precondition the three float arrays the law needs are finite, and the
    two arrangements are one function. -/
theorem algebraic : Cert.algebraic_KernelIdeal_ReferenceIdeal := by
  intro m ρ m' ρ' hpre hagree
  refine ⟨fun c => Cert.Lda.KernelValue.result m c, Cert.Lda.KernelValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v32_eq]
  obtain ⟨a0, a1, a2, a3⟩ := hagree c
  rw [a0, a1, a2, a3]
  obtain ⟨hz, hmu, hlcd⟩ := Cert.Lda.Finite.reals_of_pre _ _ _ _ (hpre c)
  funext i
  obtain ⟨n, q, rfl⟩ : ∃ (n : Fin 8192) (q : Fin 2048), i = ix2 n q := ⟨i 0, i 1, eq_ix2 i⟩
  rw [Cert.Lda.RefValue.ref_apply, ← logPrior_eq]
  exact Cert.Lda.refForm_eq_kerForm _ _ _ _ hz hmu hlcd n q

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
